-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S8192x1 : Shape := ⟨2, ![8192, 1]⟩
abbrev S1x8192 : Shape := ⟨2, ![1, 8192]⟩
abbrev S2x1x8192 : Shape := ⟨3, ![2, 1, 8192]⟩
abbrev S4096x1 : Shape := ⟨2, ![4096, 1]⟩
abbrev S1x1x8192 : Shape := ⟨3, ![1, 1, 8192]⟩
abbrev S512x1 : Shape := ⟨2, ![512, 1]⟩
abbrev S512x8192 : Shape := ⟨2, ![512, 8192]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S8192x1, .f32⟩
  | .hbm, ⟨4, _⟩ => ⟨S1x8192, .f32⟩
  | .hbm, ⟨5, _⟩ => ⟨S1x8192, .f32⟩
  | .hbm, ⟨6, _⟩ => ⟨S2x1x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S4096x1, .f32⟩
  | .local _ .vmem, ⟨1, _⟩ => ⟨S4096x1, .f32⟩
  | .local _ .vmem, ⟨2, _⟩ => ⟨S4096x1, .f32⟩
  | .local _ .vmem, ⟨3, _⟩ => ⟨S4096x1, .f32⟩
  | .local _ .vmem, ⟨4, _⟩ => ⟨S1x8192, .f32⟩
  | .local _ .vmem, ⟨5, _⟩ => ⟨S1x8192, .f32⟩
  | .local _ .vmem, ⟨6, _⟩ => ⟨S1x1x8192, .f32⟩
  | .local _ .vmem, ⟨7, _⟩ => ⟨S1x1x8192, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v11 : BitVec 32 := Scalar.muli arg6 c512_i32
  v11
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v11 : BitVec 32 := Scalar.muli arg6 c512_i32
  let v12 : BitVec 32 := v11
  let v13 : Index := Scalar.indexCast v12
  let c0_8 : Index := 0#32
  ![v13.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S8192x1 : S8192.ShapeCasts S8192x1
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  h_S512x1 : 0 < S512x1.numel
  shapeCasts_S512x1_S512x1 : S512x1.ShapeCasts S512x1
  broadcasts_S512x1_S512x8192 : S512x1.Broadcasts S512x8192
  broadcasts_S1x8192_S512x8192 : S1x8192.Broadcasts S512x8192
  reduces_S512x8192_S8192 : S512x8192.Reduces [0] S8192
  shapeCasts_S1x8192_S1x1x8192 : S1x8192.ShapeCasts S1x1x8192
  inb_S1x1x8192_S1x1x8192_0_0_0 : ∀ a, (![0, 0, 0] : Fin 3 → Nat) a + S1x1x8192.size a ≤ S1x1x8192.size a
  h_S1x1x8192 : 0 < S1x1x8192.numel
  reducesTo_S2x1x8192_S_d0_1_2 : S2x1x8192.ReducesTo [0, 1, 2] S_
  h_S_ : 0 < S_.numel
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x1.size a ≤ S4096x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S8192x1.size a
  hwx0_0 : ∀ i : grid0.Coords, EltTy.bits .f32 = 32 ∨ (Rect.block (s := S8192x1) S4096x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S8192x1.size a
  hwx0_1 : ∀ i : grid0.Coords, EltTy.bits .f32 = 32 ∨ (Rect.block (s := S8192x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8192.size a ≤ S2x1x8192.size a
  hwx0_4 : ∀ i : grid0.Coords, EltTy.bits .f32 = 32 ∨ (Rect.block (s := S2x1x8192) S1x1x8192.size (cc0_transform_4 i) (hinb0_4 i)).WholeWords (EltTy.packing .f32)

variable [Facts₀]

abbrev win0_0 : Pipeline.Window sig grid0 :=
  Pipeline.Window.ofSpec (Memref.whole main_v0) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S1x8192, .f32⟩
  | .hbm, ⟨3, _⟩ => ⟨S8192x1, .f32⟩
  | .hbm, ⟨4, _⟩ => ⟨S8192x8192, .f32⟩
  | .hbm, ⟨5, _⟩ => ⟨S8192x8192, .f32⟩
  | .hbm, ⟨6, _⟩ => ⟨S8192x8192, .i1⟩
  | .hbm, ⟨7, _⟩ => ⟨S1x8192, .f32⟩
  | .hbm, ⟨8, _⟩ => ⟨S8192x1, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.Consts.lean ====
/-
  The float constants the two programs spell, as the extended reals their bit patterns denote.  The kernel's
  margin constant is the reference's margin constant halved exactly: the two words share the significand
  0x23D70A and differ by one in the exponent field, so no rounding separates 0.5 · c from the folded word.
-/
import Idealize.ShloMosaic.PureOps.Ideal

noncomputable section

namespace Cert.Consts

open Idealize.ShloMosaic

/-- The word 0x3F000000 denotes one half. -/
theorem ofBits_half : Ideal.ofBits .f32 0x3F000000#32 = (((1 : ℝ) / 2 : ℝ) : EReal) := by
  simp [Ideal.ofBits, Ideal.ieee, -EReal.coe_mul]; norm_num

/-- The reference's margin word 0x3C23D70A denotes 10737418 · 2⁻³⁰. -/
theorem ofBits_margin : Ideal.ofBits .f32 0x3C23D70A#32 = (((10737418 : ℝ) / 1073741824 : ℝ) : EReal) := by
  simp [Ideal.ofBits, Ideal.ieee, -EReal.coe_mul]; norm_num

/-- The kernel's folded word 0x3BA3D70A denotes 10737418 · 2⁻³¹: half the margin. -/
theorem ofBits_halfMargin : Ideal.ofBits .f32 0x3BA3D70A#32 = (((10737418 : ℝ) / 2147483648 : ℝ) : EReal) := by
  simp [Ideal.ofBits, Ideal.ieee, -EReal.coe_mul]; norm_num

/-- The zero word denotes zero. -/
theorem ofBits_zero : Ideal.ofBits .f32 0x00000000#32 = 0 := by
  simp [Ideal.ofBits, Ideal.ieee]

end Cert.Consts

end
-- ==== Proof.Spec.lean ====
/-
  The pairwise hinge term both programs sum, and the one algebraic law between their arrangements.

  For a row i and a column j the reference forms   0.5 · (c − (x_j − x_i)) + 0.5 · (x_i − t_i)²,
  the kernel hoists the row and column parts:      ((c/2 + 0.5 · x_i) + 0.5 · (x_i − t_i)²) − 0.5 · x_j.
  On real numbers the two agree by distributing 0.5 over the bracket; the kernel's constant is exactly half the
  reference's.  On the extended reals distributivity fails at the infinities, so the equality is stated for
  finite x_i, x_j, t_i only.  Both programs then clamp at zero, keep the term where t_j > t_i and sum over all
  pairs; the kernel walks the rows as i = 4096 · c + 512 · k + r.
-/
import proofs.«120733_j65532611002861_2_alg».proof.Proof.Consts
import Idealize.ShloMosaic.Lib.ValueIdx

noncomputable section

open scoped BigOperators

namespace Cert.Hinge

open Idealize.ShloMosaic Idealize.ShloMosaic.ValueIdx

/-- The reference's arrangement of the hinge argument. -/
def hingeRef (xi xj ti : EReal) : EReal :=
  Ideal.ofBits .f32 0x3F000000#32 * (Ideal.ofBits .f32 0x3C23D70A#32 - (xj - xi))
    + Ideal.ofBits .f32 0x3F000000#32 * ((xi - ti) * (xi - ti))

/-- The kernel's arrangement: the row part, then the column part subtracted. -/
def hingeKer (xi xj ti : EReal) : EReal :=
  Ideal.ofBits .f32 0x3BA3D70A#32 + Ideal.ofBits .f32 0x3F000000#32 * xi
      + Ideal.ofBits .f32 0x3F000000#32 * ((xi - ti) * (xi - ti))
    - Ideal.ofBits .f32 0x3F000000#32 * xj

/-- On real numbers the two arrangements are one value: 0.5 distributes, and c/2 is half of c. -/
theorem hingeKer_eq_hingeRef (xi xj ti : ℝ) : hingeKer xi xj ti = hingeRef xi xj ti := by
  unfold hingeKer hingeRef
  rw [Cert.Consts.ofBits_half, Cert.Consts.ofBits_margin, Cert.Consts.ofBits_halfMargin]
  simp only [← EReal.coe_mul, ← EReal.coe_add, ← EReal.coe_sub]
  exact EReal.coe_eq_coe_iff.mpr (by ring)

/-- One pair's contribution from its hinge argument A: max(A, 0) where the column's target exceeds the row's, else 0. -/
def masked (A tj ti : EReal) : EReal :=
  Scalar.select (FloatOps.cmpf (F := Ideal) (φ := .f32) .ogt tj ti)
    (max A (Ideal.ofBits .f32 0x00000000#32)) (Ideal.ofBits .f32 0x00000000#32)

/-- The reference's term at the pair (i, j) of the two input vectors. -/
def refTerm (x t : (⟨1, ![8192]⟩ : Shape).Idx → EReal) (i j : Fin 8192) : EReal :=
  masked (hingeRef (x (ix1 i)) (x (ix1 j)) (t (ix1 i))) (t (ix1 j)) (t (ix1 i))

/-- The kernel's term at the pair (i, j). -/
def kerTerm (x t : (⟨1, ![8192]⟩ : Shape).Idx → EReal) (i j : Fin 8192) : EReal :=
  masked (hingeKer (x (ix1 i)) (x (ix1 j)) (t (ix1 i))) (t (ix1 j)) (t (ix1 i))

/-- For finite inputs the two terms agree at every pair. -/
theorem kerTerm_eq_refTerm (x t : (⟨1, ![8192]⟩ : Shape).Idx → EReal)
    (hx : ∀ i, ∃ r : ℝ, x i = (r : EReal)) (ht : ∀ i, ∃ r : ℝ, t i = (r : EReal)) (i j : Fin 8192) :
    kerTerm x t i j = refTerm x t i j := by
  unfold kerTerm refTerm
  obtain ⟨a, ha⟩ := hx (ix1 i)
  obtain ⟨b, hb⟩ := hx (ix1 j)
  obtain ⟨d, hd⟩ := ht (ix1 i)
  rw [ha, hb, hd, hingeKer_eq_hingeRef]

/-- A row number from its core c, chunk k and row-in-chunk r. -/
def row (c : Fin 2) (k : Fin 8) (r : Fin 512) : Fin 8192 :=
  ⟨4096 * c.val + 512 * k.val + r.val, by have := c.isLt; have := k.isLt; have := r.isLt; omega⟩

/-- Rows are in bijection with (core, chunk, row-in-chunk). -/
def rowEquiv : Fin 2 × Fin 8 × Fin 512 ≃ Fin 8192 where
  toFun p := row p.1 p.2.1 p.2.2
  invFun i := (⟨i.val / 4096, by have := i.isLt; omega⟩, ⟨i.val % 4096 / 512, by have := i.isLt; omega⟩,
    ⟨i.val % 512, by have := i.isLt; omega⟩)
  left_inv p := by
    obtain ⟨c, k, r⟩ := p
    have := c.isLt; have := k.isLt; have := r.isLt
    refine Prod.ext (Fin.ext ?_) (Prod.ext (Fin.ext ?_) (Fin.ext ?_)) <;> simp only [row] <;> omega
  right_inv i := by
    have := i.isLt
    refine Fin.ext ?_
    simp only [row]
    omega

/-- A sum over the rows is the sum over cores, chunks and rows in a chunk. -/
theorem sum_rows {M : Type*} [AddCommMonoid M] (f : Fin 8192 → M) :
    ∑ i, f i = ∑ c : Fin 2, ∑ k : Fin 8, ∑ r : Fin 512, f (row c k r) := by
  rw [← Equiv.sum_comp rowEquiv f, Fintype.sum_prod_type]
  refine Finset.sum_congr rfl fun c _ => ?_
  rw [Fintype.sum_prod_type]
  rfl

end Cert.Hinge

end
-- ==== Proof.BodyRow.lean ====
/-
  One trip of the kernel's loop, read at a column.

  A trip takes a chunk of 512 rows (their inputs v14 and targets v17, as columns [512, 1]), the whole input and
  target rows v0, v2 (as [1, 8192]) and the running column sums acc; it forms the [512, 8192] tile of masked hinge
  terms, sums the tile over its rows and adds the result to acc.  At column j that is
      acc_j + Σ_{r < 512} masked (hingeKer x_r x_j t_r) t_j t_r .
-/
import proofs.«120733_j65532611002861_2_alg».proof.Proof.Gen.KernelIdeal.Skeleton
import proofs.«120733_j65532611002861_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.Hinge

/-- A column [a, 1] broadcast along the second axis reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a [512, 8192] tile over its rows, at column j, is the sum over r of the tile at (r, j). -/
theorem rowSum_apply (src : FVec Ideal S512x8192 .f32) (hφ : FKind.Formats .f32)
    (hacc : (0x00000000#32 : BitVec 32) = FKind.add.neutral .f32 hφ) (j : Fin 8192) :
    multiReduction (F := Ideal) .add [0] S8192 src 0x00000000#32 reduces_S512x8192_S8192 hφ hacc (ix1 j)
      = ∑ r : Fin 512, src (ix2 r j) := by
  refine (Ideal.multiReduction_add_single src 0x00000000#32 reduces_S512x8192_S8192 hφ hacc (ix1 j)).trans ?_
  show ∑ r : Fin 512, src (reduces_S512x8192_S8192.lift (ix1 j) r) = _
  refine Finset.sum_congr rfl fun r _ => congrArg src ?_
  funext a
  match a with
  | ⟨0, _⟩ => rfl
  | ⟨1, _⟩ => rfl

/-- One trip's yield at column j. -/
theorem pay2_apply (v0 v2 : Vec Ideal S1x8192 .f32) (acc : FVec Ideal S1x8192 .f32) (v14 v17 : Vec Ideal S512x1 .f32)
    (u : Fin 1) (j : Fin 8192) :
    k0_pay2 (F := Ideal) v0 v2 acc v14 v17 (ix2 u j)
      = acc (ix2 u j) + ∑ r : Fin 512,
          masked (hingeKer (v14 (ix2 r (0 : Fin 1))) (v0 (ix2 (0 : Fin 1) j)) (v17 (ix2 r (0 : Fin 1))))
            (v2 (ix2 (0 : Fin 1) j)) (v17 (ix2 r (0 : Fin 1))) := by
  unfold k0_pay2
  refine (addf_apply (φ := .f32) acc _ (ix2 u j)).trans ?_
  refine congrArg (acc (ix2 u j) + ·) ?_
  refine (shapeCast_a_1a_apply _ shapeCasts_S8192_S1x8192 u j).trans ?_
  refine (rowSum_apply _ _ _ j).trans ?_
  refine Finset.sum_congr rfl fun r _ => ?_
  unfold masked hingeKer
  simp only [select_apply, cmpf_apply, maximumf_apply, subf_apply, addf_apply, mulf_apply, broadcast_apply,
    shapeCast_self, broadcastTo_1b_ab_apply, broadcastTo_a1_ab_apply]
  rfl

end Cert.KernelIdeal.Body

end
-- ==== Proof.BodyLoop.lean ====
/-
  What one grid point leaves in its output block: the column sums of the masked hinge terms over the point's rows.

  The body walks its 4096 rows in eight chunks of 512, carrying the running column sums from zero; chunk k loads
  rows 512 · k … 512 · k + 511 of the point's input and target blocks.  So the block ends, at column j, at
      0 + Σ_{k < 8} Σ_{r < 512} masked (hingeKer x_{512k+r} x_j t_{512k+r}) t_j t_{512k+r} ,
  by induction on the number of chunks done.
-/
import proofs.«120733_j65532611002861_2_alg».proof.Proof.Gen.KernelIdeal.Frame
import proofs.«120733_j65532611002861_2_alg».proof.Proof.BodyRow
import Idealize.ShloMosaic.Lib.Pipeline.Value
import Idealize.ShloMosaic.Lib.Tactic

noncomputable section

open scoped BigOperators

namespace Cert.KernelIdeal.Body

open Idealize.ShloMosaic Idealize.ShloMosaic.TcCoe Idealize.ShloMosaic.ValueIdx Idealize.SL.Sem
open Cert.KernelIdeal Cert.KernelIdeal.Gen Cert.Hinge

theorem zeros2 : (![0, 0] : Fin 2 → Nat) = fun _ => 0 := funext fun a => by fin_cases a <;> rfl
theorem zeros3 : (![0, 0, 0] : Fin 3 → Nat) = fun _ => 0 := funext fun a => by fin_cases a <;> rfl

/-- The loop makes eight trips. -/
theorem trips_eq : k0_t1_loop.trips = 8 := by decide

section AnyValues

variable {F : FTy → Type} [FloatOps F]
variable (c : Dev nD) (i : grid0.Coords) (arg1 : Memref sig .tc .vmem S4096x1 .f32) (harg1 : arg1.IsWhole)
  (arg2 : Memref sig .tc .vmem S4096x1 .f32) (harg2 : arg2.IsWhole) (arg3 : Memref sig .tc .vmem S1x8192 .f32) (harg3 : arg3.IsWhole)
  (arg4 : Memref sig .tc .vmem S1x8192 .f32) (harg4 : arg4.IsWhole) (arg5 : Memref sig .tc .vmem S1x1x8192 .f32) (harg5 : arg5.IsWhole)

/-- The running column sums before chunk n, for a point whose input and target blocks are x0, x1 and whose whole
    input and target rows are x2, x3. -/
abbrev sums (x0 x1 : Vec F S4096x1 .f32) (x2 x3 : Vec F S1x8192 .f32) (n : ℕ) : FVec F S1x8192 .f32 :=
  st_k0_t1 Variants.none c none i arg1 harg1 arg2 harg2 arg3 harg3 arg4 harg4 arg5 harg5 x2 x3
    (harg1.unread x0) (harg2.unread x1) k0_pay1 n

/-- The output block the body leaves is the running sums after the eighth chunk, given a leading unit axis. -/
theorem out_eq (x0 x1 : Vec F S4096x1 .f32) (x2 x3 : Vec F S1x8192 .f32) :
    out0_A_4 c i arg1 harg1 arg2 harg2 arg3 harg3 arg4 harg4 arg5 harg5 x0 x1 x2 x3
      = k0_pay3 (sums c i arg1 harg1 arg2 harg2 arg3 harg3 arg4 harg4 arg5 harg5 x0 x1 x2 x3 8) := by
  unfold out0_A_4
  rw [View.read_writes_eq_canon _ _ _ (cover0_A_4 c i arg1 harg1 arg2 harg2 arg3 harg3 arg4 harg4 arg5 harg5 x0 x1 x2 x3)]
  unfold kernelRun0_A
  dsimp only
  rw [View.canon_unit_zero zeros3]
  simp only [View.readAt_eq_ld, harg3.read_unread, harg4.read_unread, View.ld_unit_zero (S := S1x8192) zeros2]
  rw [show Scf.trips (0#32) (Scalar.addi 0#32 8#32) 1#32 = 8 from by decide]

/-- Chunk k's rows of a block: the 512 rows from 512 · k on. -/
abbrev rowsOf (x : Vec F S4096x1 .f32) (k : Fin k0_t1_loop.trips) : Vec F S512x1 .f32 :=
  View.ld x (Rect.unit (k0_off1 k) S512x1.size (k0_off1_inb k))

/-- Row r of chunk k is row 512 · k + r of the block. -/
theorem rowsOf_apply (x : Vec F S4096x1 .f32) (k : Fin k0_t1_loop.trips) (r : Fin 512) (hr : 512 * k.val + r.val < 4096) :
    rowsOf x k (ix2 r (0 : Fin 1)) = x (ix2 (⟨512 * k.val + r.val, hr⟩ : Fin 4096) (0 : Fin 1)) := by
  refine congrArg x (funext fun a => Fin.ext ?_)
  match a with
  | ⟨0, _⟩ =>
    show k0_off1 k 0 + 1 * r.val = 512 * k.val + r.val
    rw [k0_off1_eq]
    show 512 * k.val + 1 * r.val = _
    omega
  | ⟨1, _⟩ =>
    show k0_off1 k 1 + 1 * 0 = 0
    rw [k0_off1_eq]
    rfl

/-- One trip adds its chunk's tile sums to the running sums. -/
theorem sums_succ (x0 x1 : Vec F S4096x1 .f32) (x2 x3 : Vec F S1x8192 .f32) (k : Fin k0_t1_loop.trips) :
    sums c i arg1 harg1 arg2 harg2 arg3 harg3 arg4 harg4 arg5 harg5 x0 x1 x2 x3 (k.val + 1)
      = k0_pay2 x2 x3 (sums c i arg1 harg1 arg2 harg2 arg3 harg3 arg4 harg4 arg5 harg5 x0 x1 x2 x3 k.val) (rowsOf x0 k) (rowsOf x1 k) := by
  refine (st_k0_t1_succ (F := F) Variants.none c none i arg1 harg1 arg2 harg2 arg3 harg3 arg4 harg4 arg5 harg5 x2 x3
    (harg1.unread x0) (harg2.unread x1) k0_pay1 k).trans ?_
  unfold tripR_k0_t1 trip_k0_t1
  dsimp only
  simp only [View.readAt_eq_ld, harg1.read_unread, harg2.read_unread]

end AnyValues

section AtIdeal

variable (c : Dev nD) (i : grid0.Coords) (arg1 : Memref sig .tc .vmem S4096x1 .f32) (harg1 : arg1.IsWhole)
  (arg2 : Memref sig .tc .vmem S4096x1 .f32) (harg2 : arg2.IsWhole) (arg3 : Memref sig .tc .vmem S1x8192 .f32) (harg3 : arg3.IsWhole)
  (arg4 : Memref sig .tc .vmem S1x8192 .f32) (harg4 : arg4.IsWhole) (arg5 : Memref sig .tc .vmem S1x1x8192 .f32) (harg5 : arg5.IsWhole)

/-- A block row number from its chunk and row in the chunk. -/
def blockRow (k : Fin 8) (r : Fin 512) : Fin 4096 := ⟨512 * k.val + r.val, by have := k.isLt; have := r.isLt; omega⟩

/-- Chunk k's tile summed over its rows, at column j. -/
def chunkSum (x0 x1 : Vec Ideal S4096x1 .f32) (x2 x3 : Vec Ideal S1x8192 .f32) (k : Fin 8) (j : Fin 8192) : EReal :=
  ∑ r : Fin 512, masked (hingeKer (x0 (ix2 (blockRow k r) (0 : Fin 1))) (x2 (ix2 (0 : Fin 1) j)) (x1 (ix2 (blockRow k r) (0 : Fin 1))))
    (x3 (ix2 (0 : Fin 1) j)) (x1 (ix2 (blockRow k r) (0 : Fin 1)))

/-- The running sums before chunk n, at column j: zero plus the first n chunks' tile sums. -/
theorem sums_apply (x0 x1 : Vec Ideal S4096x1 .f32) (x2 x3 : Vec Ideal S1x8192 .f32) (u : Fin 1) (j : Fin 8192) :
    ∀ (n : ℕ) (hn : n ≤ 8), sums (F := Ideal) c i arg1 harg1 arg2 harg2 arg3 harg3 arg4 harg4 arg5 harg5 x0 x1 x2 x3 n (ix2 u j)
      = Ideal.ofBits .f32 0x00000000#32 + ∑ k : Fin n, chunkSum x0 x1 x2 x3 (Fin.castLE hn k) j
  | 0, _ => by
    rw [Fin.sum_univ_zero, add_zero]
    rfl
  | n + 1, hn => by
    have hk : n < k0_t1_loop.trips := by rw [trips_eq]; omega
    have e := congrFun (sums_succ (F := Ideal) c i arg1 harg1 arg2 harg2 arg3 harg3 arg4 harg4 arg5 harg5 x0 x1 x2 x3 ⟨n, hk⟩) (ix2 u j)
    refine e.trans ?_
    refine (pay2_apply x2 x3 _ _ _ u j).trans ?_
    rw [sums_apply x0 x1 x2 x3 u j n (by omega), add_assoc]
    refine congrArg (Ideal.ofBits .f32 0x00000000#32 + ·) ?_
    refine Eq.trans ?_ (Fin.sum_univ_castSucc (fun k : Fin (n + 1) => chunkSum x0 x1 x2 x3 (Fin.castLE hn k) j)).symm
    refine congrArg₂ (· + ·) rfl ?_
    unfold chunkSum
    refine Finset.sum_congr rfl fun r _ => ?_
    have hr : 512 * n + r.val < 4096 := by have := r.isLt; omega
    rw [rowsOf_apply x0 ⟨n, hk⟩ r hr, rowsOf_apply x1 ⟨n, hk⟩ r hr]
    rfl

/-- What the body leaves in its output block, at (0, 0, j): zero plus all eight chunks' tile sums. -/
theorem out_apply (x0 x1 : Vec Ideal S4096x1 .f32) (x2 x3 : Vec Ideal S1x8192 .f32) (u v : Fin 1) (j : Fin 8192) :
    out0_A_4 (F := Ideal) c i arg1 harg1 arg2 harg2 arg3 harg3 arg4 harg4 arg5 harg5 x0 x1 x2 x3 (ix3 u v j)
      = Ideal.ofBits .f32 0x00000000#32 + ∑ k : Fin 8, chunkSum x0 x1 x2 x3 k j := by
  rw [out_eq]
  unfold k0_pay3
  refine (shapeCast_ab_1ab_apply _ shapeCasts_S1x8192_S1x1x8192 u v j).trans ?_
  exact sums_apply c i arg1 harg1 arg2 harg2 arg3 harg3 arg4 harg4 arg5 harg5 x0 x1 x2 x3 v j 8 le_rfl

end AtIdeal

end Cert.KernelIdeal.Body

end
-- ==== Proof.Total.lean ====
/-
  The grand total both programs scale.

  The kernel's call leaves a [2, 1, 8192] array of partial column sums: entry (c, 0, j) is zero plus the sum, over
  the 4096 rows i = 4096 · c + 512 · k + r of core c, of the kernel's term at (i, j).  Summing that array over all of
  its entries is summing the kernel's term over every pair (i, j): addition on the extended reals is commutative
  and associative, so the order of the chunks, cores and columns does not matter.
-/
import proofs.«120733_j65532611002861_2_alg».proof.Proof.Spec

noncomputable section

open scoped BigOperators

namespace Cert.Hinge

open Idealize.ShloMosaic Idealize.ShloMosaic.ValueIdx

/-- Core c's partial sum of column j. -/
def colSum (x t : (⟨1, ![8192]⟩ : Shape).Idx → EReal) (c : Fin 2) (j : Fin 8192) : EReal :=
  Ideal.ofBits .f32 0x00000000#32 + ∑ k : Fin 8, ∑ r : Fin 512, kerTerm x t (row c k r) j

/-- The array of partial sums the kernel's call leaves. -/
def partials (x t : (⟨1, ![8192]⟩ : Shape).Idx → EReal) : (⟨3, ![2, 1, 8192]⟩ : Shape).Idx → EReal :=
  fun q => colSum x t ⟨(q 0).val, (q 0).isLt⟩ ⟨(q 2).val, (q 2).isLt⟩

/-- Rank-3 indices are triples of coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The partial sums add up to the sum of the kernel's term over every pair. -/
theorem sum_partials (x t : (⟨1, ![8192]⟩ : Shape).Idx → EReal) :
    ∑ q, partials x t q = ∑ i : Fin 8192, ∑ j : Fin 8192, kerTerm x t i j := by
  rw [sum_idx3, sum_rows]
  refine Finset.sum_congr rfl fun c _ => ?_
  rw [Fin.sum_univ_one]
  show ∑ j : Fin 8192, colSum x t c j = _
  unfold colSum
  simp only [Cert.Consts.ofBits_zero, zero_add]
  rw [Finset.sum_comm]
  refine Finset.sum_congr rfl fun k _ => ?_
  rw [Finset.sum_comm]

/-- The kernel's result: the scale word times (zero plus the kernel's term summed over every pair). -/
def kerResult (x t : (⟨1, ![8192]⟩ : Shape).Idx → EReal) : (⟨0, ![]⟩ : Shape).Idx → EReal :=
  fun _ => Ideal.ofBits .f32 0x33000000#32 * (Ideal.ofBits .f32 0x00000000#32 + ∑ i : Fin 8192, ∑ j : Fin 8192, kerTerm x t i j)

/-- The reference's result: the same with the reference's term. -/
def refResult (x t : (⟨1, ![8192]⟩ : Shape).Idx → EReal) : (⟨0, ![]⟩ : Shape).Idx → EReal :=
  fun _ => Ideal.ofBits .f32 0x33000000#32 * (Ideal.ofBits .f32 0x00000000#32 + ∑ i : Fin 8192, ∑ j : Fin 8192, refTerm x t i j)

/-- For finite inputs the two results are one number: the terms agree pair by pair. -/
theorem refResult_eq_kerResult (x t : (⟨1, ![8192]⟩ : Shape).Idx → EReal)
    (hx : ∀ i, ∃ r : ℝ, x i = (r : EReal)) (ht : ∀ i, ∃ r : ℝ, t i = (r : EReal)) :
    refResult x t = kerResult x t := by
  unfold refResult kerResult
  funext _
  refine congrArg (Ideal.ofBits .f32 0x33000000#32 * ·) (congrArg (Ideal.ofBits .f32 0x00000000#32 + ·) ?_)
  exact Finset.sum_congr rfl fun i _ => Finset.sum_congr rfl fun j _ => (kerTerm_eq_refTerm x t hx ht i j).symm

end Cert.Hinge

end
-- ==== Proof.KernelArray.lean ====
/-
  From the blocks to the array, and through the lines after the call.

  The call's four operands are the two input vectors, each once as a column [8192, 1] (cut into two blocks of 4096
  rows, one per grid point) and once as a row [1, 8192] (whole at every point).  Point t's input blocks are
  therefore rows 4096 · t … 4096 · t + 4095 of the vectors, and what it writes back is block t of the array of
  partial column sums.  The two blocks cover the [2, 1, 8192] result, so after the call the result is that array;
  the lines after the call add up all of its entries from zero and scale the total.
-/
import proofs.«120733_j65532611002861_2_alg».proof.Proof.Gen.KernelIdeal.Frame
import proofs.«120733_j65532611002861_2_alg».proof.Proof.BodyLoop
import proofs.«120733_j65532611002861_2_alg».proof.Proof.Total
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.ShloMosaic.ValueIdx Idealize.SL.Sem
open Idealize.ShloMosaic.Pipeline (Dat)

namespace Cert.KernelIdeal.Arr

open Cert.KernelIdeal Cert.KernelIdeal.Gen Cert.Hinge

variable (m : (ℓ : Loc nD τ sig) → Buf (Elt Ideal) ℓ) (ρ : Dev nD → PrngReg)

/-- A vector read as a column: [a] → [a, 1] at (i, 0) is the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The two input vectors as the program is launched with them. -/
abbrev inp (c : Dev nD) : (⟨1, ![8192]⟩ : Shape).Idx → EReal := m ((c : Thread nD τ).loc main_arg0)
abbrev tgt (c : Dev nD) : (⟨1, ![8192]⟩ : Shape).Idx → EReal := m ((c : Thread nD τ).loc main_arg1)

/-! ## The operands as the call finds them -/

theorem V_v0 (c : Dev nD) : (V m c main_v0 : S8192x1.Idx → EReal) = shapeCast S8192x1 (inp m c) shapeCasts_S8192_S8192x1 := by
  show StableHlo.after hostOps0 (fun b => m (c, b)) (Proc.devRef .tc main_v0) = _
  after_results
  rfl
theorem V_v1 (c : Dev nD) : (V m c main_v1 : S8192x1.Idx → EReal) = shapeCast S8192x1 (tgt m c) shapeCasts_S8192_S8192x1 := by
  show StableHlo.after hostOps0 (fun b => m (c, b)) (Proc.devRef .tc main_v1) = _
  after_results
  rfl
theorem V_v2 (c : Dev nD) : (V m c main_v2 : S1x8192.Idx → EReal) = shapeCast S1x8192 (inp m c) shapeCasts_S8192_S1x8192 := by
  show StableHlo.after hostOps0 (fun b => m (c, b)) (Proc.devRef .tc main_v2) = _
  after_results
  rfl
theorem V_v3 (c : Dev nD) : (V m c main_v3 : S1x8192.Idx → EReal) = shapeCast S1x8192 (tgt m c) shapeCasts_S8192_S1x8192 := by
  show StableHlo.after hostOps0 (fun b => m (c, b)) (Proc.devRef .tc main_v3) = _
  after_results
  rfl

/-- The block indices of the five windows at point t: the column operands and the result move with t, the row operands stay. -/
theorem blockIdx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The input blocks at a point -/

/-- Row p of point t's input block is entry 4096 · t + p of the input vector. -/
theorem blk0_apply (c : Dev nD) (t : Fin cfg0.N) (p : Fin 4096) (hp : 4096 * t.val + p.val < 8192) :
    (iblk m c 0 t : Vec Ideal S4096x1 .f32) (ix2 p (0 : Fin 1)) = inp m c (ix1 (⟨4096 * t.val + p.val, hp⟩ : Fin 8192)) := by
  obtain ⟨e0, e1, -⟩ := blockIdx t
  unfold iblk
  rw [View.read_apply]
  show V m c main_v0 (((cfg0.win 0).blk t).view.emb (ix2 p (0 : Fin 1))) = _
  have hi : ((cfg0.win 0).blk t).view.emb (ix2 p (0 : Fin 1)) = ix2 (⟨4096 * t.val + p.val, hp⟩ : Fin 8192) (0 : Fin 1) := by
    funext a; apply Fin.ext
    match a with
    | ⟨0, _⟩ => show win0_0.index t (0 : Fin 2) * 4096 + 1 * p.val = 4096 * t.val + p.val; rw [e0]; omega
    | ⟨1, _⟩ => show win0_0.index t (1 : Fin 2) * 1 + 1 * 0 = 0; rw [e1]
  rw [hi, V_v0]
  exact shapeCast_a_a1_apply _ _ _ _

/-- Row p of point t's target block is entry 4096 · t + p of the target vector. -/
theorem blk1_apply (c : Dev nD) (t : Fin cfg0.N) (p : Fin 4096) (hp : 4096 * t.val + p.val < 8192) :
    (iblk m c 1 t : Vec Ideal S4096x1 .f32) (ix2 p (0 : Fin 1)) = tgt m c (ix1 (⟨4096 * t.val + p.val, hp⟩ : Fin 8192)) := by
  obtain ⟨-, -, e0, e1, -⟩ := blockIdx t
  unfold iblk
  rw [View.read_apply]
  show V m c main_v1 (((cfg0.win 1).blk t).view.emb (ix2 p (0 : Fin 1))) = _
  have hi : ((cfg0.win 1).blk t).view.emb (ix2 p (0 : Fin 1)) = ix2 (⟨4096 * t.val + p.val, hp⟩ : Fin 8192) (0 : Fin 1) := by
    funext a; apply Fin.ext
    match a with
    | ⟨0, _⟩ => show win0_1.index t (0 : Fin 2) * 4096 + 1 * p.val = 4096 * t.val + p.val; rw [e0]; omega
    | ⟨1, _⟩ => show win0_1.index t (1 : Fin 2) * 1 + 1 * 0 = 0; rw [e1]
  rw [hi, V_v1]
  exact shapeCast_a_a1_apply _ _ _ _

/-- Column j of the whole input row is entry j of the input vector, at every point. -/
theorem blk2_apply (c : Dev nD) (t : Fin cfg0.N) (j : Fin 8192) :
    (iblk m c 2 t : Vec Ideal S1x8192 .f32) (ix2 (0 : Fin 1) j) = inp m c (ix1 j) := by
  obtain ⟨-, -, -, -, e0, e1, -⟩ := blockIdx t
  unfold iblk
  rw [View.read_apply]
  show V m c main_v2 (((cfg0.win 2).blk t).view.emb (ix2 (0 : Fin 1) j)) = _
  have hi : ((cfg0.win 2).blk t).view.emb (ix2 (0 : Fin 1) j) = ix2 (0 : Fin 1) j := by
    funext a; apply Fin.ext
    match a with
    | ⟨0, _⟩ => show win0_2.index t (0 : Fin 2) * 1 + 1 * 0 = 0; rw [e0]
    | ⟨1, _⟩ => show win0_2.index t (1 : Fin 2) * 8192 + 1 * j.val = j.val; rw [e1]; omega
  rw [hi, V_v2]
  exact shapeCast_a_1a_apply _ _ _ _

/-- Column j of the whole target row is entry j of the target vector, at every point. -/
theorem blk3_apply (c : Dev nD) (t : Fin cfg0.N) (j : Fin 8192) :
    (iblk m c 3 t : Vec Ideal S1x8192 .f32) (ix2 (0 : Fin 1) j) = tgt m c (ix1 j) := by
  obtain ⟨-, -, -, -, -, -, e0, e1, -⟩ := blockIdx t
  unfold iblk
  rw [View.read_apply]
  show V m c main_v3 (((cfg0.win 3).blk t).view.emb (ix2 (0 : Fin 1) j)) = _
  have hi : ((cfg0.win 3).blk t).view.emb (ix2 (0 : Fin 1) j) = ix2 (0 : Fin 1) j := by
    funext a; apply Fin.ext
    match a with
    | ⟨0, _⟩ => show win0_3.index t (0 : Fin 2) * 1 + 1 * 0 = 0; rw [e0]
    | ⟨1, _⟩ => show win0_3.index t (1 : Fin 2) * 8192 + 1 * j.val = j.val; rw [e1]; omega
  rw [hi, V_v3]
  exact shapeCast_a_1a_apply _ _ _ _

/-! ## What a point writes back, and the array after the call -/

/-- Point t writes back block t of the array of partial column sums. -/
theorem flushed_eq (c : Dev nD) (t : Fin cfg0.N) :
    (dats m 0 c).flushed 4 t = ((cfg0.win 4).blk t).view.read (Elt Ideal) (partials (inp m c) (tgt m c)) := by
  obtain ⟨-, -, -, -, -, -, -, -, e40, e41, e42⟩ := blockIdx t
  have hN : cfg0.N = 2 := N_0
  have ht : t.val < 2 := by have := t.isLt; omega
  show (cfg0.win 4).cut (grid0.coords t) ((dats m 0 c).after 4 t) = _
  rw [after0_4]
  unfold outsAt0
  funext y
  obtain ⟨u, v, j, rfl⟩ : ∃ (u v : Fin 1) (j : Fin 8192), y = ix3 u v j := ⟨y 0, y 1, y 2, eq_ix3 y⟩
  rw [View.read_apply]
  show out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (ix3 u v j)
    = partials (inp m c) (tgt m c) (((cfg0.win 4).blk t).view.emb (ix3 u v j))
  refine (Body.out_apply c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) u v j).trans ?_
  have hq : ((cfg0.win 4).blk t).view.emb (ix3 u v j) = ix3 (⟨t.val, ht⟩ : Fin 2) (0 : Fin 1) j := by
    funext a; apply Fin.ext
    match a with
    | ⟨0, _⟩ => show win0_4.index t (0 : Fin 3) * 1 + 1 * u.val = t.val; rw [e40]; omega
    | ⟨1, _⟩ => show win0_4.index t (1 : Fin 3) * 1 + 1 * v.val = 0; rw [e41]; omega
    | ⟨2, _⟩ => show win0_4.index t (2 : Fin 3) * 8192 + 1 * j.val = j.val; rw [e42]; omega
  rw [hq]
  show _ = colSum (inp m c) (tgt m c) (⟨t.val, ht⟩ : Fin 2) j
  unfold colSum Body.chunkSum
  refine congrArg (Ideal.ofBits .f32 0x00000000#32 + ·) (Finset.sum_congr rfl fun k _ => Finset.sum_congr rfl fun r _ => ?_)
  have hp : 4096 * t.val + (Body.blockRow k r).val < 8192 := by have := (Body.blockRow k r).isLt; omega
  rw [blk0_apply m c t (Body.blockRow k r) hp, blk1_apply m c t (Body.blockRow k r) hp, blk2_apply m c t j, blk3_apply m c t j]
  have hrow : (⟨4096 * t.val + (Body.blockRow k r).val, hp⟩ : Fin 8192) = row (⟨t.val, ht⟩ : Fin 2) k r :=
    Fin.ext (by simp only [Body.blockRow, row]; omega)
  rw [hrow]
  rfl

/-- After the call the result array is the array of partial column sums: its two blocks cover it. -/
theorem final (c : Dev nD) : (dats m 0 c).arrAt 4 cfg0.N = partials (inp m c) (tgt m c) :=
  (dats m 0 c).arrAt_eq_of_cover 4 (partials (inp m c) (tgt m c)) (fun t _ => flushed_eq m c t) fun i => by
    have hN : cfg0.N = 2 := N_0
    have h0 : (i 0 : Nat) < 2 := (i 0).isLt
    have h1 : (i 1 : Nat) < 1 := (i 1).isLt
    have h2 : (i 2 : Nat) < 8192 := (i 2).isLt
    have hlt : (i 0 : Nat) < cfg0.N := by omega
    refine ⟨⟨(i 0 : Nat), hlt⟩, flush0_4 _, ?_⟩
    obtain ⟨-, -, -, -, -, -, -, -, e40', e41, e42⟩ := blockIdx ⟨(i 0 : Nat), hlt⟩
    have e40 : win0_4.index ⟨(i 0 : Nat), hlt⟩ (0 : Fin 3) = (i 0 : Nat) := e40'
    show i ∈ ((View.whole main_v4).slice (win0_4.rect ⟨(i 0 : Nat), hlt⟩)).set
    rw [View.set_slice_whole, Rect.mem_set_unit]
    intro a
    match a with
    | ⟨0, _⟩ => show win0_4.index _ (0 : Fin 3) * 1 ≤ (i 0 : Nat) ∧ (i 0 : Nat) < win0_4.index _ (0 : Fin 3) * 1 + 1; rw [e40]; omega
    | ⟨1, _⟩ => show win0_4.index _ (1 : Fin 3) * 1 ≤ (i 1 : Nat) ∧ (i 1 : Nat) < win0_4.index _ (1 : Fin 3) * 1 + 1; rw [e41]; omega
    | ⟨2, _⟩ => show win0_4.index _ (2 : Fin 3) * 8192 ≤ (i 2 : Nat) ∧ (i 2 : Nat) < win0_4.index _ (2 : Fin 3) * 8192 + 8192; rw [e42]; omega

/-! ## The lines after the call -/

/-- Summing an array over all of its entries from zero and scaling: the lines after the call, as one value. -/
theorem tail_value (P : S2x1x8192.Idx → EReal) :
    mulf (constant (F := Ideal) S_ .f32 0x33000000#32)
        (Host.reduceAdd (F := Ideal) P (constant (F := Ideal) S_ .f32 0x00000000#32) reducesTo_S2x1x8192_S_d0_1_2 h_S_)
      = fun _ => Ideal.ofBits .f32 0x33000000#32 * (Ideal.ofBits .f32 0x00000000#32 + ∑ q, P q) := by
  funext i
  refine (mulf_apply (φ := .f32) _ _ i).trans ?_
  refine congrArg (Ideal.ofBits .f32 0x33000000#32 * ·) ?_
  simp only [Host.reduceAdd, Ideal.hostReduceAdd_def]
  exact Ideal.hostReduceAdd_total reducesTo_S2x1x8192_S_d0_1_2 (fun b => b.elim0) P _ i

/-- The program's result buffer after the lines that follow the call. -/
theorem tail_eq (c : Dev nD) :
    Pipeline.afterTail₀ cfgs (dats m) 0 (V0 m) [hostOps1] c main_v6 = kerResult (inp m c) (tgt m c) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v4)
      = partials (inp m c) (tgt m c) :=
    (Pipeline.withArrays_arr spec0 launch0.win.arr_inj c (V0 m c) (fun w => (dats m 0 c).arrAt w cfg0.N) 4).trans (final m c)
  rw [e]
  refine (tail_value (partials (inp m c) (tgt m c))).trans ?_
  unfold kerResult
  rw [sum_partials]

/-- The kernel program's run, read: its result is the kernel's scaled total of the launch inputs, which end unchanged. -/
theorem run : θ_run defs (onTc (τ := τ) (main (F := Ideal))) ⟨m, fun _ => 0, ρ⟩ fun r => ∀ c : Dev nD,
      r.2.mem ((c.tc : Thread nD τ).loc main_v6) = kerResult (inp m c) (tgt m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v6 (Pipeline.mem_restRefs_of main_v6 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Arr

end
-- ==== Proof.RefSide.lean ====
/-
  The reference's result, index by index.

  The reference builds the full [8192, 8192] table: at (i, j) the mask bit t_j > t_i, the hinge argument
  0.5 · (c − (x_j − x_i)) + 0.5 · (x_i − t_i)², its clamp at zero and the select against zero; it then adds up the
  whole table from zero and scales the total.  Reading each of its operations at an index gives exactly the
  reference's term at the pair (i, j).
-/
import proofs.«120733_j65532611002861_2_alg».proof.Proof.Gen.ReferenceIdeal.Read
import proofs.«120733_j65532611002861_2_alg».proof.Proof.Total
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read Cert.Hinge

/-- The table's entry at (i, j) is the reference's term at that pair. -/
theorem table_apply (x t : (⟨S8192, .f32⟩ : BufTy).Contents (Elt Ideal)) (i j : Fin 8192) :
    val_main_v23 (F := Ideal) x t (ix2 i j) = refTerm x t i j := by
  have ej : idx_main_v0 (idx_main_v2 (ix2 i j)) = ix1 j := funext fun a => match a with | ⟨0, _⟩ => rfl
  have ei : idx_main_v1 (idx_main_v3 (ix2 i j)) = ix1 i := funext fun a => match a with | ⟨0, _⟩ => rfl
  have ej' : idx_main_v5 (idx_main_v7 (ix2 i j)) = ix1 j := funext fun a => match a with | ⟨0, _⟩ => rfl
  have ei' : idx_main_v6 (idx_main_v8 (ix2 i j)) = ix1 i := funext fun a => match a with | ⟨0, _⟩ => rfl
  have ei'' : idx_main_v18 (idx_main_v19 (ix2 i j)) = ix1 i := funext fun a => match a with | ⟨0, _⟩ => rfl
  rw [val_main_v23_apply, val_main_v4_apply, val_main_v2_apply, val_main_v0_apply, val_main_v3_apply, val_main_v1_apply,
    val_main_v22_apply, val_main_v20_apply, val_main_v17_apply, val_main_v16_apply, val_main_cst_1_apply,
    val_main_v15_apply, val_main_v14_apply, val_main_cst_0_apply, val_main_v9_apply, val_main_v7_apply,
    val_main_v5_apply, val_main_v8_apply, val_main_v6_apply, val_main_v19_apply, val_main_v18_apply,
    val_main_v13_apply, val_main_v12_apply, val_main_cst_apply, val_main_v11_apply, val_main_v10_apply,
    val_main_v21_apply, val_main_cst_2_apply, val_main_call0_v1_apply, val_main_call0_v0_apply, val_main_cst_3_apply,
    ej, ei, ej', ei', ei'']
  rfl

/-- The reference's result is the scaled total of its term over every pair. -/
theorem result_eq (x t : (⟨S8192, .f32⟩ : BufTy).Contents (Elt Ideal)) :
    val_main_v25 (F := Ideal) x t = refResult x t := by
  funext q
  rw [val_main_v25_apply, val_main_cst_5_apply, val_main_v24_apply, val_main_cst_4_apply, sum_idx2]
  unfold refResult
  refine congrArg (Ideal.ofBits .f32 0x33000000#32 * ·) (congrArg (Ideal.ofBits .f32 0x00000000#32 + ·) ?_)
  exact Finset.sum_congr rfl fun i _ => Finset.sum_congr rfl fun j _ => table_apply x t i j

end Cert.ReferenceIdeal.RefValue

end
-- ==== Proof.Finite.lean ====
/-
  The precondition makes every input a real number.

  The precondition says, of each input vector, that |v_i| < +∞ at every index i (an all-reduction of the
  comparisons by "and", the two vectors' results conjoined).  On the extended reals |v| = max v (−v) is below +∞
  exactly when v is neither infinity, that is, when v is a real number.
-/
import proofs.«120733_j65532611002861_2_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.Pre_finite_inputs.Finite

open Idealize.ShloMosaic Cert.Pre_finite_inputs

variable [Facts]
open Facts

instance : Subsingleton S_.Idx := ⟨fun a b => funext fun d => d.elim0⟩

/-- The word 0x7F800000 denotes +∞. -/
theorem ofBits_inf : Ideal.ofBits .f32 0x7F800000#32 = ⊤ := by simp [Ideal.ofBits, Ideal.ieee]

/-- An extended real whose absolute value is below +∞ is a real number. -/
theorem real_of_abs_lt_top (a : EReal) (h : max a (-a) < ⊤) : ∃ r : ℝ, a = (r : EReal) := by
  induction a using EReal.rec with
  | bot => exact absurd h (by simp)
  | top => exact absurd h (by simp)
  | coe r => exact ⟨r, rfl⟩

/-- A "less than" comparison that answers one holds. -/
theorem lt_of_cmp_olt {a b : EReal} (h : Ideal.cmp .olt a b = 1#1) : a < b := by
  unfold Ideal.cmp at h
  by_contra hn
  simp [hn] at h

/-- If the all-reduction of |v_i| < +∞ answers one, every v_i is a real number. -/
theorem reals_of_all (v : FVec Ideal S8192 .f32)
    (h : Host.reduce IntOp.andi
        (cmpf .olt (Host.absf v) (broadcastInDim S8192 ![] bcast_S_S8192 (constant (F := Ideal) S_ .f32 0x7F800000#32)))
        (constantI S_ 1 1#1) reducesTo_S8192_S_d0 h_S_ ValueIdx.ix0 = 1#1) (i : S8192.Idx) :
    ∃ r : ℝ, v i = (r : EReal) := by
  have hi := Host.reduce_andi_all _ _ reducesTo_S8192_S_d0 h_S_ ValueIdx.ix0 h i
  have hb : broadcastInDim S8192 ![] bcast_S_S8192 (constant (F := Ideal) S_ .f32 0x7F800000#32) i
      = Ideal.ofBits .f32 0x7F800000#32 :=
    broadcastInDim_apply _ bcast_S_S8192 _ i ValueIdx.ix0 (fun a => a.elim0)
  have hc : Ideal.cmp .olt (max (v i) (-(v i)))
      (broadcastInDim S8192 ![] bcast_S_S8192 (constant (F := Ideal) S_ .f32 0x7F800000#32) i) = 1#1 := hi
  rw [hb, ofBits_inf] at hc
  exact real_of_abs_lt_top _ (lt_of_cmp_olt hc)

/-- Under the precondition both input vectors hold real numbers only. -/
theorem reals_of_pre (x t : FVec Ideal S8192 .f32) (h : fn (F := Ideal) x t = fun _ => 1#1) :
    (∀ i, ∃ r : ℝ, x i = (r : EReal)) ∧ (∀ i, ∃ r : ℝ, t i = (r : EReal)) := by
  have h0 := congrFun h ValueIdx.ix0
  dsimp only [fn] at h0
  obtain ⟨hx, ht⟩ := IntOp.andi_eq_one.mp h0
  exact ⟨reals_of_all x hx, reals_of_all t ht⟩

end Cert.Pre_finite_inputs.Finite

end
-- ==== Proof.lean ====
/-
  A pairwise hinge-plus-squared-error loss over two vectors x, t of length 8192: the kernel against its reference.

  Both programs compute   2⁻²⁵ · Σ_{i,j} [t_j > t_i] · max(h(i, j), 0)   with
      h(i, j) = 0.5 · (c − (x_j − x_i)) + 0.5 · (x_i − t_i)² .
  The reference forms the whole 8192 × 8192 table and adds it up.  The kernel rewrites
      h(i, j) = ((c/2 + 0.5 · x_i) + 0.5 · (x_i − t_i)²) − 0.5 · x_j ,
  a row part minus a column part, splits the rows between two grid points, walks each point's 4096 rows in eight
  chunks of 512 while carrying the column sums, and leaves a [2, 1, 8192] array of partial column sums that the
  lines after the call add up and scale.

  Two facts join the two sides.  The rewritten h is the same real number: 0.5 distributes over the bracket, and
  the kernel's constant word is exactly half the reference's (same significand, exponent one less).  Distributing
  needs x_i, x_j, t_i finite, which is what the precondition gives.  And the two programs add the same terms in
  different orders and groupings; addition on the extended reals is commutative and associative, so the totals
  agree.  The idealized kernel is the kernel's own text read over the extended reals (the ideal pass rewrote
  nothing), so the fourth conjunct is trivial; the frames are the generated ones, the reference's its generated run.
-/
import proofs.«120733_j65532611002861_2_alg».proof.Defs
import proofs.«120733_j65532611002861_2_alg».proof.Proof.Gen.Kernel
import proofs.«120733_j65532611002861_2_alg».proof.Proof.Gen.Kernel.Frame
import proofs.«120733_j65532611002861_2_alg».proof.Proof.Gen.KernelIdeal
import proofs.«120733_j65532611002861_2_alg».proof.Proof.Gen.KernelIdeal.Frame
import proofs.«120733_j65532611002861_2_alg».proof.Proof.Gen.ReferenceIdeal
import proofs.«120733_j65532611002861_2_alg».proof.Proof.Gen.ReferenceIdeal.Run
import proofs.«120733_j65532611002861_2_alg».proof.Proof.Gen.ReferenceIdeal.Read
import proofs.«120733_j65532611002861_2_alg».proof.Proof.Gen.Pre_finite_inputs
import proofs.«120733_j65532611002861_2_alg».proof.Proof.KernelArray
import proofs.«120733_j65532611002861_2_alg».proof.Proof.RefSide
import proofs.«120733_j65532611002861_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the kernel's scaled total of the launch inputs: the kernel by its blocks and the lines after
    the call, the reference by its table read index by index and the finite inputs' algebra. -/
theorem algebraic : Cert.algebraic_KernelIdeal_ReferenceIdeal := by
  intro m ρ m' ρ' hpre hagree
  refine ⟨fun c => Cert.Hinge.kerResult (Cert.KernelIdeal.Arr.inp m c) (Cert.KernelIdeal.Arr.tgt m c),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq, (hagree c).1, (hagree c).2]
  obtain ⟨hx, ht⟩ := Cert.Pre_finite_inputs.Finite.reals_of_pre _ _ (hpre c)
  exact Cert.Hinge.refResult_eq_kerResult _ _ hx ht

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
